-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x512 : Shape := ⟨3, ![4, 256, 512]⟩
abbrev S4x64x512 : Shape := ⟨3, ![4, 64, 512]⟩
abbrev S512x1024 : Shape := ⟨2, ![512, 1024]⟩
abbrev S512 : Shape := ⟨1, ![512]⟩
abbrev S1000x512 : Shape := ⟨2, ![1000, 512]⟩
abbrev S1000 : Shape := ⟨1, ![1000]⟩
abbrev S_ : Shape := ⟨0, ![]⟩

class Facts : Prop where
  bcast_S_S4x256x512 : S_.BroadcastsInDim S4x256x512 (![] : Fin 0 → Fin S4x256x512.rank)
  reducesTo_S4x256x512_S_d0_1_2 : S4x256x512.ReducesTo [0, 1, 2] S_
  h_S_ : 0 < S_.numel
  bcast_S_S4x64x512 : S_.BroadcastsInDim S4x64x512 (![] : Fin 0 → Fin S4x64x512.rank)
  reducesTo_S4x64x512_S_d0_1_2 : S4x64x512.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S1000x512 : S_.BroadcastsInDim S1000x512 (![] : Fin 0 → Fin S1000x512.rank)
  reducesTo_S1000x512_S_d0_1 : S1000x512.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg4 : FVec F S1000x512 .f32) (main_arg5 : FVec F S1000 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1000x512 .f32 := Host.absf main_arg4
  let main_cst_6 : FVec F S_ .f32 := constant S_ .f32 0x7F800000#32
  let main_v20 : FVec F S1000x512 .f32 := broadcastInDim S1000x512 ![] bcast_S_S1000x512 main_cst_6
  let main_v21 : IVec S1000x512 1 := cmpf .olt main_v19 main_v20
  let main_c_7 : IVec S_ 1 := constantI S_ 1 1#1
  let main_v22 : IVec S_ 1 := (fun x v => Host.reduce IntOp.andi x v reducesTo_S1000x512_S_d0_1 h_S_) main_v21 main_c_7
  let main_v23 : IVec S_ 1 := andi main_v18 main_v22
  let main_v24 : FVec F S1000 .f32 := Host.absf main_arg5
  let main_cst_8 : FVec F S_ .f32 := constant S_ .f32 0x7F800000#32
  let main_v25 : FVec F S1000 .f32 := broadcastInDim S1000 ![] bcast_S_S1000 main_cst_8
  let main_v26 : IVec S1000 1 := cmpf .olt main_v24 main_v25
  let main_c_9 : IVec S_ 1 := constantI S_ 1 1#1
  let main_v27 : IVec S_ 1 := (fun x v => Host.reduce IntOp.andi x v reducesTo_S1000_S_d0 h_S_) main_v26 main_c_9
  let main_v28 : IVec S_ 1 := andi main_v23 main_v27
  main_v28

def fn {F : FTy → Type} [FloatOps F] (main_arg0 : FVec F S4x256x512 .f32) (main_arg1 : FVec F S4x64x512 .f32) (main_arg2 : FVec F S512x1024 .f32) (main_arg3 : FVec F S512 .f32) (main_arg4 : FVec F S1000x512 .f32) (main_arg5 : FVec F S1000 .f32) : IVec S_ 1 :=
  let main_v0 : FVec F S4x256x512 .f32 := Host.absf main_arg0
  let main_cst : FVec F S_ .f32 := constant S_ .f32 0x7F800000#32
  let main_v1 : FVec F S4x256x512 .f32 := broadcastInDim S4x256x512 ![] bcast_S_S4x256x512 main_cst
  let main_v2 : IVec S4x256x512 1 := cmpf .olt main_v0 main_v1
  let main_c : IVec S_ 1 := constantI S_ 1 1#1
  let main_v3 : IVec S_ 1 := (fun x v => Host.reduce IntOp.andi x v reducesTo_S4x256x512_S_d0_1_2 h_S_) main_v2 main_c
  let main_v4 : FVec F S4x64x512 .f32 := Host.absf main_arg1
  let main_cst_0 : FVec F S_ .f32 := constant S_ .f32 0x7F800000#32
  let main_v5 : FVec F S4x64x512 .f32 := broadcastInDim S4x64x512 ![] bcast_S_S4x64x512 main_cst_0
  let main_v6 : IVec S4x64x512 1 := cmpf .olt main_v4 main_v5
  let main_c_1 : IVec S_ 1 := constantI S_ 1 1#1
  let main_v7 : IVec S_ 1 := (fun x v => Host.reduce IntOp.andi x v reducesTo_S4x64x512_S_d0_1_2 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S4x256x512 : Shape := ⟨3, ![4, 256, 512]⟩
abbrev S4x64x512 : Shape := ⟨3, ![4, 64, 512]⟩
abbrev S512x1024 : Shape := ⟨2, ![512, 1024]⟩
abbrev S512 : Shape := ⟨1, ![512]⟩
abbrev S1000x512 : Shape := ⟨2, ![1000, 512]⟩
abbrev S1000 : Shape := ⟨1, ![1000]⟩
abbrev S512x512 : Shape := ⟨2, ![512, 512]⟩
abbrev S512x1000 : Shape := ⟨2, ![512, 1000]⟩
abbrev S4x256x64x1000 : Shape := ⟨4, ![4, 256, 64, 1000]⟩
abbrev S1x32x512 : Shape := ⟨3, ![1, 32, 512]⟩
abbrev S1x64x512 : Shape := ⟨3, ![1, 64, 512]⟩
abbrev S1x32x64x1000 : Shape := ⟨4, ![1, 32, 64, 1000]⟩
abbrev S32x512 : Shape := ⟨2, ![32, 512]⟩
abbrev S64x512 : Shape := ⟨2, ![64, 512]⟩
abbrev S32x1x512 : Shape := ⟨3, ![32, 1, 512]⟩
abbrev S32x64x512 : Shape := ⟨3, ![32, 64, 512]⟩
abbrev S1x1x512 : Shape := ⟨3, ![1, 1, 512]⟩
abbrev S2048x512 : Shape := ⟨2, ![2048, 512]⟩
abbrev S2048x1000 : Shape := ⟨2, ![2048, 1000]⟩
abbrev S1x1000 : Shape := ⟨2, ![1, 1000]⟩
abbrev S32x64x1000 : Shape := ⟨3, ![32, 64, 1000]⟩

abbrev nBuf : Space → Nat
  | .hbm => 17
  | .vmem => 11
  | .smem => 0
  | _ => 0

abbrev bufTy : (tb : Table) → Fin (tcTables nBuf tb) → BufTy
  | .hbm, ⟨0, _⟩ => ⟨S4x256x512, .f32⟩
  | .hbm, ⟨1, _⟩ => ⟨S4x64x512, .f32⟩
  | .hbm, ⟨2, _⟩ => ⟨S512x1024, .f32⟩
  | .hbm, ⟨3, _⟩ => ⟨S512, .f32⟩
  | .hbm, ⟨4, _⟩ => ⟨S1000x512, .f32⟩
  | .hbm, ⟨5, _⟩ => ⟨S1000, .f32⟩
  | .hbm, ⟨6, _⟩ => ⟨S512x512, .f32⟩
  | .hbm, ⟨7, _⟩ => ⟨S512x512, .f32⟩
  | .hbm, ⟨8, _⟩ => ⟨S512x512, .bf16⟩
  | .hbm, ⟨9, _⟩ => ⟨S512x512, .f32⟩
  | .hbm, ⟨10, _⟩ => ⟨S512x512, .f32⟩
  | .hbm, ⟨11, _⟩ => ⟨S512x512, .bf16⟩
  | .hbm, ⟨12, _⟩ => ⟨S512x1000, .f32⟩
  | .hbm, ⟨13, _⟩ => ⟨S512x1000, .bf16⟩
  | .hbm, ⟨14, _⟩ => ⟨S4x256x512, .bf16⟩
  | .hbm, ⟨15, _⟩ => ⟨S4x64x512, .bf16⟩
  | .hbm, ⟨16, _⟩ => ⟨S4x256x64x1000, .f32⟩
  | .local _ .vmem, ⟨0, _⟩ => ⟨S1x32x512, .bf16⟩
  | .local _ .vmem, ⟨1, _⟩ => ⟨S1x32x512, .bf16⟩
  | .local _ .vmem, ⟨2, _⟩ => ⟨S1x64x512, .bf16⟩
  | .local _ .vmem, ⟨3, _⟩ => ⟨S1x64x512, .bf16⟩
  | .local _ .vmem, ⟨4, _⟩ => ⟨S512x512, .bf16⟩
  | .local _ .vmem, ⟨5, _⟩ => ⟨S512x512, .bf16⟩
  | .local _ .vmem, ⟨6, _⟩ => ⟨S512x1000, .bf16⟩
  | .local _ .vmem, ⟨7, _⟩ => ⟨S512, .f32⟩
  | .local _ .vmem, ⟨8, _⟩ => ⟨S1000, .f32⟩
  | .local _ .vmem, ⟨9, _⟩ => ⟨S1x32x64x1000, .f32⟩
  | .local _ .vmem, ⟨10, _⟩ => ⟨S1x32x64x1000, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1000 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x32x64x1000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  slices_S512x1024_S512x512_0_0 : S512x1024.Slices ![0, 0] S512x512
  transposes_S512x512_S512x512_1_0 : S512x512.Transposes [1, 0] S512x512
  bitsLt_bf16_f32 : FTy.bits .bf16 < FTy.bits .f32
  slices_S512x1024_S512x512_0_512 : S512x1024.Slices ![0, 512] S512x512
  transposes_S1000x512_S512x1000_1_0 : S1000x512.Transposes [1, 0] S512x1000
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1000_S512x1000_0_0 : ∀ a, (![0, 0] : Fin 2 → Nat) a + S512x1000.size a ≤ S512x1000.size a
  h_S512x1000 : 0 < S512x1000.numel
  shapeCasts_S512x1000_S512x1000 : S512x1000.ShapeCasts S512x1000
  inb_S512_S512_0 : ∀ a, (![0] : Fin 1 → Nat) a + S512.size a ≤ S512.size a
  h_S512 : 0 < S512.numel
  inb_S1000_S1000_0 : ∀ a, (![0] : Fin 1 → Nat) a + S1000.size a ≤ S1000.size a
  h_S1000 : 0 < S1000.numel
  shapeCasts_S32x512_S32x1x512 : S32x512.ShapeCasts S32x1x512
  shapeCasts_S64x512_S1x64x512 : S64x512.ShapeCasts S1x64x512
  broadcasts_S32x1x512_S32x64x512 : S32x1x512.Broadcasts S32x64x512
  broadcasts_S1x64x512_S32x64x512 : S1x64x512.Broadcasts S32x64x512
  shapeCasts_S512_S1x1x512 : S512.ShapeCasts S1x1x512
  broadcasts_S1x1x512_S32x64x512 : S1x1x512.Broadcasts S32x64x512
  shapeCasts_S32x64x512_S2048x512 : S32x64x512.ShapeCasts S2048x512
  shapeCasts_S1000_S1x1000 : S1000.ShapeCasts S1x1000
  broadcasts_S1x1000_S2048x1000 : S1x1000.Broadcasts S2048x1000
  shapeCasts_S2048x1000_S32x64x1000 : S2048x1000.ShapeCasts S32x64x1000
  inb_S1x32x64x1000_S1x32x64x1000_0_0_0_0 : ∀ a, (![0, 0, 0, 0] : Fin 4 → Nat) a + S1x32x64x1000.size a ≤ S1x32x64x1000.size a
  h_S1x32x64x1000 : 0 < S1x32x64x1000.numel
  shapeCasts_S1x32x64x1000_S32x64x1000 : S1x32x64x1000.ShapeCasts S32x64x1000
  shapeCasts_S32x64x1000_S1x32x64x1000 : S32x64x1000.ShapeCasts S1x32x64x1000
  dot_S32x512_S512x512_S32x512_1_0_0_1_n_n_wf : DotDims.WF S32x512 S512x512 S32x512 [1] [0] [0] [1] [] []
  dot_S64x512_S512x512_S64x512_1_0_0_1_n_n_wf : DotDims.WF S64x512 S512x512 S64x512 [1] [0] [0] [1] [] []
  dot_S2048x512_S512x1000_S2048x1000_1_0_0_1_n_n_wf : DotDims.WF S2048x512 S512x1000 S2048x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512.size a ≤ S4x256x512.size a
  hwx0_0 : ∀ i : grid0.Coords, EltTy.bits .bf16 = 32 ∨ (Rect.block (s := S4x256x512) S1x32x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S4x64x512.size a
  hwx0_1 : ∀ i : grid0.Coords, EltTy.bits .bf16 = 32 ∨ (Rect.block (s := S4x64x512) S1x64x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1000.size a ≤ S512x1000.size a
  hwx0_4 : ∀ i : grid0.Coords, EltTy.bits .bf16 = 32 ∨ (Rect.block (s := S512x1000) S512x1000.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1000.size a ≤ S1000.size a
  hwx0_6 : ∀ i : grid0.Coords, EltTy.bits .f32 = 32 ∨ (Rect.block (s := S1000) S1000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x32x64x1000.size a ≤ S4x256x64x1000.size a
  hwx0_7 : ∀ i : grid0.Coords, EltTy.bits .f32 = 32 ∨ (Rect.block (s := S4x256x64x1000) S1x32x64x1000.size (cc0_transform_7 i) (hinb0_7 i)).WholeWords (EltTy.packing .f32)

variable [Facts₀]

def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S2048x512_S512x1000_S2048x1000_1_0_0_1_n_n : DotDims S2048x512 S512x1000 S2048x1000 where
  lhsContracting := [1]
  rhsContracting := [0]
  lhsNonContracting := [0]
  rhsNonContracting := [1]
  lhsBatch := []
  rhsBatch := []
  wf := dot_S2048x512_S512x1000_S2048x1000_1_0_0_1_n_n_wf

abbrev win0_0 : Pipeline.Window sig grid0 :=
  Pipeline.Window.ofSpec (Memref.whole main_v8) S1x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x1000.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1000.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x32x64x1000.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x256x512 : Shape := ⟨3, ![4, 256, 512]⟩
abbrev S4x64x512 : Shape := ⟨3, ![4, 64, 512]⟩
abbrev S512x1024 : Shape := ⟨2, ![512, 1024]⟩
abbrev S512 : Shape := ⟨1, ![512]⟩
abbrev S1000x512 : Shape := ⟨2, ![1000, 512]⟩
abbrev S1000 : Shape := ⟨1, ![1000]⟩
abbrev S512x512 : Shape := ⟨2, ![512, 512]⟩
abbrev S4x256x1x512 : Shape := ⟨4, ![4, 256, 1, 512]⟩
abbrev S4x1x64x512 : Shape := ⟨4, ![4, 1, 64, 512]⟩
abbrev S4x256x64x512 : Shape := ⟨4, ![4, 256, 64, 512]⟩
abbrev S1x1x1x512 : Shape := ⟨4, ![1, 1, 1, 512]⟩
abbrev S4x256x64x1000 : Shape := ⟨4, ![4, 256, 64, 1000]⟩
abbrev S1x1x1x1000 : Shape := ⟨4, ![1, 1, 1, 1000]⟩

abbrev nBuf : Space → Nat
  | .hbm => 23
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x64x512, .f32⟩
  | .hbm, ⟨2, _⟩ => ⟨S512x1024, .f32⟩
  | .hbm, ⟨3, _⟩ => ⟨S512, .f32⟩
  | .hbm, ⟨4, _⟩ => ⟨S1000x512, .f32⟩
  | .hbm, ⟨5, _⟩ => ⟨S1000, .f32⟩
  | .hbm, ⟨6, _⟩ => ⟨S512x512, .f32⟩
  | .hbm, ⟨7, _⟩ => ⟨S512x512, .f32⟩
  | .hbm, ⟨8, _⟩ => ⟨S4x256x512, .f32⟩
  | .hbm, ⟨9, _⟩ => ⟨S4x64x512, .f32⟩
  | .hbm, ⟨10, _⟩ => ⟨S4x256x1x512, .f32⟩
  | .hbm, ⟨11, _⟩ => ⟨S4x1x64x512, .f32⟩
  | .hbm, ⟨12, _⟩ => ⟨S4x256x64x512, .f32⟩
  | .hbm, ⟨13, _⟩ => ⟨S4x256x64x512, .f32⟩
  | .hbm, ⟨14, _⟩ => ⟨S4x256x64x512, .f32⟩
  | .hbm, ⟨15, _⟩ => ⟨S1x1x1x512, .f32⟩
  | .hbm, ⟨16, _⟩ => ⟨S4x256x64x512, .f32⟩
  | .hbm, ⟨17, _⟩ => ⟨S4x256x64x512, .f32⟩
  | .hbm, ⟨18, _⟩ => ⟨S4x256x64x512, .f32⟩
  | .hbm, ⟨19, _⟩ => ⟨S4x256x64x1000, .f32⟩
  | .hbm, ⟨20, _⟩ => ⟨S1x1x1x1000, .f32⟩
  | .hbm, ⟨21, _⟩ => ⟨S4x256x64x1000, .f32⟩
  | .hbm, ⟨22, _⟩ => ⟨S4x256x64x1000, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  slices_S512x1024_S512x512_0_0 : S512x1024.Slices ![0, 0] S512x512
  slices_S512x1024_S512x512_0_512 : S512x1024.Slices ![0, 512] S512x512
  bcast_S4x256x512_S4x256x1x512_0_1_3 : S4x256x512.BroadcastsInDim S4x256x1x512 (![0, 1, 3] : Fin 3 → Fin S4x256x1x512.rank)
  bcast_S4x64x512_S4x1x64x512_0_2_3 : S4x64x512.BroadcastsInDim S4x1x64x512 (![0, 2, 3] : Fin 3 → Fin S4x1x64x512.rank)
  bcast_S4x256x1x512_S4x256x64x512_0_1_2_3 : S4x256x1x512.BroadcastsInDim S4x256x64x512 (![0, 1, 2, 3] : Fin 4 → Fin S4x256x64x512.rank)
  bcast_S4x1x64x512_S4x256x64x512_0_1_2_3 : S4x1x64x512.BroadcastsInDim S4x256x64x512 (![0, 1, 2, 3] : Fin 4 → Fin S4x256x64x512.rank)
  bcast_S512_S1x1x1x512_3 : S512.BroadcastsInDim S1x1x1x512 (![3] : Fin 1 → Fin S1x1x1x512.rank)
  bcast_S1x1x1x512_S4x256x64x512_0_1_2_3 : S1x1x1x512.BroadcastsInDim S4x256x64x512 (![0, 1, 2, 3] : Fin 4 → Fin S4x256x64x512.rank)
  bcast_S1000_S1x1x1x1000_3 : S1000.BroadcastsInDim S1x1x1x1000 (![3] : Fin 1 → Fin S1x1x1x1000.rank)
  bcast_S1x1x1x1000_S4x256x64x1000_0_1_2_3 : S1x1x1x1000.BroadcastsInDim S4x256x64x1000 (![0, 1, 2, 3] : Fin 4 → Fin S4x256x64x1000.rank)
  dot_S4x256x512_S512x512_S4x256x512_2_1_01_0_n_n_wf : DotDims.WF S4x256x512 S512x512 S4x256x512 [2] [1] [0, 1] [0] [] []
  dot_S4x64x512_S512x512_S4x64x512_2_1_01_0_n_n_wf : DotDims.WF S4x64x512 S512x512 S4x64x512 [2] [1] [0, 1] [0] [] []
  dot_S4x256x64x512_S1000x512_S4x256x64x1000_3_1_012_0_n_n_wf : DotDims.WF S4x256x64x512 S1000x512 S4x256x64x1000 [3] [1] [0, 1, 2] [0] [] []

variable [Facts₀]

def dot_S4x256x512_S512x512_S4x256x512_2_1_01_0_n_n : DotDims S4x256x512 S512x512 S4x256x512 where
  lhsContracting := [2]
  rhsContracting := [1]
  lhsNonContracting := [0, 1]
  rhsNonContracting := [0]
  lhsBatch := []
  rhsBatch := []
  wf := dot_S4x256x512_S512x512_S4x256x512_2_1_01_0_n_n_wf
def dot_S4x64x512_S512x512_S4x64x512_2_1_01_0_n_n : DotDims S4x64x512 S512x512 S4x64x512 where
  lhsContracting := [2]
  rhsContracting := [1]
  lhsNonContracting := [0, 1]
  rhsNonContracting := [0]
  lhsBatch := []
  rhsBatch := []
  wf := dot_S4x64x512_S512x512_S4x64x512_2_1_01_0_n_n_wf
def dot_S4x256x64x512_S1000x512_S4x256x64x1000_3_1_012_0_n_n : DotDims S4x256x64x512 S1000x512 S4x256x64x1000 where
  lhsContracting := [3]
  rhsContracting := [1]
  lhsNonContracting := [0, 1, 2]
  rhsNonContracting := [0]
  lhsBatch := []
  rhsBatch := []
  wf := dot_S4x256x64x512_S1000x512_S4x256x64x1000_3_1_012_0_n_n_wf

class Facts : Prop extends Facts₀ where

variable [Facts]
-- ==== Proof.JointSpec.lean ====
import Idealize.ShloMosaic.Lib.ValueIdx
import Idealize.ShloMosaic.PureOps.Ideal

/-!
# The joint network as one function of its six arrays

A transducer's joint network scores every pair of an encoder frame `t` and a decoder step `u` of a batch entry `b`
against a vocabulary of 1000 symbols. Its first layer is linear in the concatenation of the encoder state
`enc[b, t, ·]` and the decoder state `dec[b, u, ·]` (512 features each), so with the weight matrix
`w1 : [512, 1024]` split by columns into an encoder half (columns `0 … 511`) and a decoder half (columns
`512 … 1023`) the pre-activation of hidden unit `k` is

  `(∑ d, enc[b, t, d] · w1[k, d]) + (∑ d, dec[b, u, d] · w1[k, 512 + d]) + b1[k]`,

the hidden unit is its hyperbolic tangent, and the score of symbol `v` is

  `(∑ k, hidden[b, t, u, k] · w2[v, k]) + b2[v]`.

This file states that function over the extended reals, index by index, with the three sums taken over `Fin 512` in
the order written. Nothing here is rearranged: both programs this is compared with group their additions exactly so.
-/

noncomputable section

namespace Cert.Joint

open Idealize.ShloMosaic Idealize.ShloMosaic.ValueIdx
open scoped BigOperators

/-- Column `d` of the first weight matrix: the encoder half. -/
abbrev encCol (d : Fin 512) : Fin 1024 := ⟨d.val, by have := d.isLt; omega⟩

/-- Column `512 + d` of the first weight matrix: the decoder half. -/
abbrev decCol (d : Fin 512) : Fin 1024 := ⟨512 + d.val, by have := d.isLt; omega⟩

variable (enc : (⟨3, ![4, 256, 512]⟩ : Shape).Idx → EReal) (dec : (⟨3, ![4, 64, 512]⟩ : Shape).Idx → EReal)
  (w1 : (⟨2, ![512, 1024]⟩ : Shape).Idx → EReal) (b1 : (⟨1, ![512]⟩ : Shape).Idx → EReal)
  (w2 : (⟨2, ![1000, 512]⟩ : Shape).Idx → EReal) (b2 : (⟨1, ![1000]⟩ : Shape).Idx → EReal)

/-- The encoder state of frame `t` projected on hidden unit `k`. -/
def encProj (b : Fin 4) (t : Fin 256) (k : Fin 512) : EReal :=
  ∑ d : Fin 512, enc (ix3 b t d) * w1 (ix2 k (encCol d))

/-- The decoder state of step `u` projected on hidden unit `k`. -/
def decProj (b : Fin 4) (u : Fin 64) (k : Fin 512) : EReal :=
  ∑ d : Fin 512, dec (ix3 b u d) * w1 (ix2 k (decCol d))

/-- Hidden unit `k` for the pair `(t, u)`: the hyperbolic tangent of the two projections and the bias, added in that order. -/
def hidden (b : Fin 4) (t : Fin 256) (u : Fin 64) (k : Fin 512) : EReal :=
  Ideal.tanh ((encProj enc w1 b t k + decProj dec w1 b u k) + b1 (ix1 k))

/-- The score of symbol `v` for the pair `(t, u)`. -/
def score (b : Fin 4) (t : Fin 256) (u : Fin 64) (v : Fin 1000) : EReal :=
  (∑ k : Fin 512, hidden enc dec w1 b1 b t u k * w2 (ix2 v k)) + b2 (ix1 v)

/-- The whole result array `[4, 256, 64, 1000]`. -/
def joint : (⟨4, ![4, 256, 64, 1000]⟩ : Shape).Idx → EReal :=
  fun i => score enc dec w1 b1 w2 b2 (i 0) (i 1) (i 2) (i 3)

/-- The result at an index written by its coordinates. -/
theorem joint_ix4 (b : Fin 4) (t : Fin 256) (u : Fin 64) (v : Fin 1000) :
    joint enc dec w1 b1 w2 b2 (ix4 b t u v) = score enc dec w1 b1 w2 b2 b t u v := rfl

end Cert.Joint

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibMidUnit.lean ====
import Idealize.ShloMosaic.Lib.ValueLayout

/-!
# A unit axis in the middle

An array of shape `[a, 1, b]` and the array of shape `[a, b]` obtained by dropping its middle axis hold the same
entries in the same row-major order: the entry at `(i, 0, j)` of the one is the entry at `(i, j)` of the other.
So a shape cast in either direction, read at an index, reads the operand at the index with the same row and the
same column, whatever `a` and `b` are. This is how a batch of row vectors kept with a singleton time axis is
handed to, and taken back from, an operation on plain matrices.
-/

namespace Cert.LibMidUnit

open Idealize.ShloMosaic Idealize.ShloMosaic.ValueIdx

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`, whatever the unit
    coordinate `u` is. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Cert.LibMidUnit
-- ==== Proof.LibRank3Layout.lean ====
import Idealize.ShloMosaic.Lib.ValueLayout

/-!
# Rank-three arrays: rows folded together, and a unit axis broadcast

Two families of re-layings of a rank-three array `[a, b, c]`, each read at an index, for any extents.

*Folding the two leading axes.* The array `[a, b, c]` and the matrix `[n, c]` with `n = a * b` hold the same
entries in the same row-major order: entry `(i, j, l)` of the one is entry `(i * b + j, l)` of the other. So a shape
cast in either direction reads the operand at the index with the same folded row.

*Broadcasting along unit axes.* An array with a unit axis broadcast to `[a, b, c]` repeats its entries along that
axis: from `[a, 1, c]` the entry `(i, j, l)` is the operand's `(i, 0, l)`, from `[1, b, c]` it is `(0, j, l)`, from
`[1, 1, c]` it is `(0, 0, l)`. A vector `[c]` stood up as `[1, 1, c]` holds at `(0, 0, l)` its entry `l`.
-/

namespace Cert.LibRank3Layout

open Idealize.ShloMosaic Idealize.ShloMosaic.ValueIdx

variable {α : Type}

/-! ## Folding the two leading axes -/

/-- A matrix `[n, c]` cast to `[a, b, c]` reads, at `(i, j, l)`, the operand at `(r, l)` where `r = i * b + j`. -/
theorem shapeCast_nc_abc_apply {n a b c : ℕ} (x : (⟨2, ![n, c]⟩ : Shape).Idx → α)
    (h : (⟨2, ![n, c]⟩ : Shape).ShapeCasts ⟨3, ![a, b, c]⟩) (i : Fin a) (j : Fin b) (l : Fin c) (r : Fin n)
    (hr : r.val = i.val * b + j.val) :
    shapeCast ⟨3, ![a, b, c]⟩ x h (ix3 i j l) = x (ix2 r l) :=
  shapeCast_apply x h _ _ (by
    rw [Shape.rowMajor_val_two, Shape.rowMajor_val_three]
    show r.val * c + l.val = (i.val * b + j.val) * c + l.val
    rw [hr])

/-- An array `[a, b, c]` cast to the matrix `[n, c]` reads, at `(r, l)` with `r = i * b + j`, the operand at `(i, j, l)`. -/
theorem shapeCast_abc_nc_apply {n a b c : ℕ} (x : (⟨3, ![a, b, c]⟩ : Shape).Idx → α)
    (h : (⟨3, ![a, b, c]⟩ : Shape).ShapeCasts ⟨2, ![n, c]⟩) (i : Fin a) (j : Fin b) (l : Fin c) (r : Fin n)
    (hr : r.val = i.val * b + j.val) :
    shapeCast ⟨2, ![n, c]⟩ x h (ix2 r l) = x (ix3 i j l) :=
  shapeCast_apply x h _ _ (by
    rw [Shape.rowMajor_val_two, Shape.rowMajor_val_three]
    show (i.val * b + j.val) * c + l.val = r.val * c + l.val
    rw [hr])

/-! ## A vector stood up with two leading unit axes -/

/-- A vector `[c]` cast to `[1, 1, c]` reads, at `(u, u', l)`, the operand at `l`, whatever the unit coordinates are. -/
theorem shapeCast_c_11c_apply {c : ℕ} (x : (⟨1, ![c]⟩ : Shape).Idx → α)
    (h : (⟨1, ![c]⟩ : Shape).ShapeCasts ⟨3, ![1, 1, c]⟩) (u u' : Fin 1) (l : Fin c) :
    shapeCast ⟨3, ![1, 1, c]⟩ x h (ix3 u u' l) = x (ix1 l) :=
  shapeCast_apply x h _ _ (by
    have hu : u.val = 0 := by omega
    have hu' : u'.val = 0 := by omega
    rw [Shape.rowMajor_val_three, Shape.rowMajor_val_one]
    show l.val = (u.val * 1 + u'.val) * c + l.val
    rw [hu, hu']
    simp)

/-! ## Broadcasting along unit axes -/

/-- An `[a, 1, c]` array broadcast to `[a, b, c]` reads, at `(i, j, l)`, the operand at `(i, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (l : Fin c) :
    broadcastTo ⟨3, ![a, b, c]⟩ v h (ix3 i j l) = v (ix3 i (0 : Fin 1) l) := by
  refine broadcastTo_apply v h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if c = 1 then 0 else l.val
    split
    · have := l.isLt; omega
    · rfl

/-- A `[1, b, c]` array broadcast to `[a, b, c]` reads, at `(i, j, l)`, the operand at `(0, j, l)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (l : Fin c) :
    broadcastTo ⟨3, ![a, b, c]⟩ v h (ix3 i j l) = v (ix3 (0 : Fin 1) j l) := by
  refine broadcastTo_apply v h (ix3 i j l) (ix3 (0 : Fin 1) j l) fun ax => ?_
  match ax with
  | ⟨0, _⟩ => rfl
  | ⟨1, _⟩ =>
    show j.val = if b = 1 then 0 else j.val
    split
    · have := j.isLt; omega
    · rfl
  | ⟨2, _⟩ =>
    show l.val = if c = 1 then 0 else l.val
    split
    · have := l.isLt; omega
    · rfl

/-- A `[1, 1, c]` array broadcast to `[a, b, c]` reads, at `(i, j, l)`, the operand at `(0, 0, l)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (l : Fin c) :
    broadcastTo ⟨3, ![a, b, c]⟩ v h (ix3 i j l) = v (ix3 (0 : Fin 1) (0 : Fin 1) l) := by
  refine broadcastTo_apply v h (ix3 i j l) (ix3 (0 : Fin 1) (0 : Fin 1) l) fun ax => ?_
  match ax with
  | ⟨0, _⟩ => rfl
  | ⟨1, _⟩ => rfl
  | ⟨2, _⟩ =>
    show l.val = if c = 1 then 0 else l.val
    split
    · have := l.isLt; omega
    · rfl

end Cert.LibRank3Layout
-- ==== Proof.BodyJoint.lean ====
import proofs.«111311_j19585050870112_1_alg».proof.Proof.Gen.KernelIdeal.Skeleton
import proofs.«111311_j19585050870112_1_alg».proof.Proof.LibPlainDot
import proofs.«111311_j19585050870112_1_alg».proof.Proof.LibMidUnit
import proofs.«111311_j19585050870112_1_alg».proof.Proof.LibRank3Layout
import Idealize.ShloMosaic.Lib.ValueLayout
import Idealize.ShloMosaic.Lib.Pipeline.Value

/-!
# What one grid point computes, entry by entry

At a grid point the kernel holds 32 encoder frames `e : [1, 32, 512]`, the 64 decoder steps `s : [1, 64, 512]` of the
same batch entry, the two halves of the first weight matrix already transposed (`we, wd : [512, 512]`, feature by
hidden unit), the second weight matrix transposed (`w : [512, 1000]`) and the two biases. It multiplies frames by `we`
and steps by `wd`, spreads the two products over the `32 × 64` pairs, adds them and the first bias, takes the
hyperbolic tangent, folds the pairs into `2048` rows, multiplies by `w`, adds the second bias along the rows and
unfolds the rows again. Over the extended reals every change of float format is the identity and a product into a
zero accumulator is a plain sum, so the entry `(0, t, u, v)` of what it stores is

  `(∑ k, tanh ((∑ d, e[0,t,d] · we[d,k]) + (∑ d, s[0,u,d] · wd[d,k]) + b1[k]) · w[k,v]) + b2[v]`.

The row of the folded matrix that holds the pair `(t, u)` is `t * 64 + u`.
-/

noncomputable section

namespace Cert.KernelIdeal.Body

open Cert.KernelIdeal Cert.KernelIdeal.Gen Idealize.ShloMosaic Idealize.ShloMosaic.ValueIdx
open scoped BigOperators

/-- The folded row of the pair `(t, u)`. -/
abbrev pairRow (t : Fin 32) (u : Fin 64) : Fin 2048 := ⟨t.val * 64 + u.val, by have := t.isLt; have := u.isLt; omega⟩

/-- Frames times the encoder half: entry `(t, k)`. -/
theorem encRows_apply (v0 : FVec Ideal S1x32x512 .bf16) (v4 : FVec Ideal S512x512 .bf16) (t : Fin 32) (k : Fin 512) :
    matmul dot_S32x512_S512x512_S32x512_1_0_0_1_n_n none (shapeCast S32x512 v0 shapeCasts_S1x32x512_S32x512)
        (shapeCast S512x512 v4 shapeCasts_S512x512_S512x512) (constant (F := Ideal) S32x512 .f32 0x00000000#32) (ix2 t k)
      = ∑ d : Fin 512, v0 (ix3 (0 : Fin 1) t d) * v4 (ix2 d k) := by
  refine (Cert.LibPlainDot.matmul_zero_apply _ ⟨rfl, rfl, rfl, rfl, rfl, rfl⟩ none _ _ t k).trans ?_
  refine Finset.sum_congr rfl fun d _ => ?_
  rw [shapeCast_1ab_ab_apply, shapeCast_self]

/-- Steps times the decoder half: entry `(u, k)`. -/
theorem decRows_apply (v2 : FVec Ideal S1x64x512 .bf16) (v6 : FVec Ideal S512x512 .bf16) (u : Fin 64) (k : Fin 512) :
    matmul dot_S64x512_S512x512_S64x512_1_0_0_1_n_n none (shapeCast S64x512 v2 shapeCasts_S1x64x512_S64x512)
        (shapeCast S512x512 v6 shapeCasts_S512x512_S512x512) (constant (F := Ideal) S64x512 .f32 0x00000000#32) (ix2 u k)
      = ∑ d : Fin 512, v2 (ix3 (0 : Fin 1) u d) * v6 (ix2 d k) := by
  refine (Cert.LibPlainDot.matmul_zero_apply _ ⟨rfl, rfl, rfl, rfl, rfl, rfl⟩ none _ _ u k).trans ?_
  refine Finset.sum_congr rfl fun d _ => ?_
  rw [shapeCast_1ab_ab_apply, shapeCast_self]

/-- The hidden layer of the block from its two products and the bias: entry `(t, u, k)`. -/
theorem hidden_apply (he : FVec Ideal S32x512 .f32) (hd : FVec Ideal S64x512 .f32) (v10 : FVec Ideal S512 .f32)
    (t : Fin 32) (u : Fin 64) (k : Fin 512) :
    tanh (addf (addf (broadcastTo S32x64x512 (shapeCast S32x1x512 he shapeCasts_S32x512_S32x1x512) broadcasts_S32x1x512_S32x64x512)
          (broadcastTo S32x64x512 (shapeCast S1x64x512 hd shapeCasts_S64x512_S1x64x512) broadcasts_S1x64x512_S32x64x512))
        (broadcastTo S32x64x512 (shapeCast S1x1x512 v10 shapeCasts_S512_S1x1x512) broadcasts_S1x1x512_S32x64x512)) (ix3 t u k)
      = Ideal.tanh ((he (ix2 t k) + hd (ix2 u k)) + v10 (ix1 k)) := by
  show Ideal.tanh ((broadcastTo S32x64x512 (shapeCast S32x1x512 he _) _ (ix3 t u k)
      + broadcastTo S32x64x512 (shapeCast S1x64x512 hd _) _ (ix3 t u k))
      + broadcastTo S32x64x512 (shapeCast S1x1x512 v10 _) _ (ix3 t u k)) = _
  rw [Cert.LibRank3Layout.broadcastTo_a1c_abc_apply, Cert.LibRank3Layout.broadcastTo_1bc_abc_apply,
    Cert.LibRank3Layout.broadcastTo_11c_abc_apply, Cert.LibMidUnit.shapeCast_ab_a1b_apply, shapeCast_ab_1ab_apply,
    Cert.LibRank3Layout.shapeCast_c_11c_apply]

/-- The scores of the block from its hidden layer: entry `(0, t, u, v)` of what is stored. -/
theorem scores_apply (h : FVec Ideal S32x64x512 .f32) (v8 : FVec Ideal S512x1000 .bf16) (v11 : FVec Ideal S1000 .f32)
    (z : Fin 1) (t : Fin 32) (u : Fin 64) (v : Fin 1000) :
    shapeCast S1x32x64x1000 (shapeCast S32x64x1000 (addf
        (matmul dot_S2048x512_S512x1000_S2048x1000_1_0_0_1_n_n none
          (shapeCast S2048x512 (truncf .bf16 h bitsLt_bf16_f32) shapeCasts_S32x64x512_S2048x512)
          (shapeCast S512x1000 v8 shapeCasts_S512x1000_S512x1000) (constant (F := Ideal) S2048x1000 .f32 0x00000000#32))
        (broadcastTo S2048x1000 (shapeCast S1x1000 v11 shapeCasts_S1000_S1x1000) broadcasts_S1x1000_S2048x1000))
      shapeCasts_S2048x1000_S32x64x1000) shapeCasts_S32x64x1000_S1x32x64x1000 (ix4 z t u v)
      = (∑ k : Fin 512, h (ix3 t u k) * v8 (ix2 k v)) + v11 (ix1 v) := by
  rw [shapeCast_abc_1abc_apply, Cert.LibRank3Layout.shapeCast_nc_abc_apply _ _ t u v (pairRow t u) rfl, addf_apply,
    broadcastTo_1b_ab_apply, shapeCast_a_1a_apply]
  refine congrArg (· + v11 (ix1 v)) ?_
  refine (Cert.LibPlainDot.matmul_zero_apply _ ⟨rfl, rfl, rfl, rfl, rfl, rfl⟩ none _ _ (pairRow t u) v).trans ?_
  refine Finset.sum_congr rfl fun k _ => ?_
  rw [Cert.LibRank3Layout.shapeCast_abc_nc_apply _ _ t u k (pairRow t u) rfl, shapeCast_self]
  rfl

/-- THE PAYLOAD at an entry: the body's one stored value, as the formula of the loaded blocks. -/
theorem pay_apply (v0 : FVec Ideal S1x32x512 .bf16) (v2 : FVec Ideal S1x64x512 .bf16) (v4 v6 : FVec Ideal S512x512 .bf16)
    (v8 : FVec Ideal S512x1000 .bf16) (v10 : FVec Ideal S512 .f32) (v11 : FVec Ideal S1000 .f32)
    (z : Fin 1) (t : Fin 32) (u : Fin 64) (v : Fin 1000) :
    k0_pay1 (F := Ideal) v0 v2 v4 v6 v8 v10 v11 (ix4 z t u v)
      = (∑ k : Fin 512, Ideal.tanh (((∑ d : Fin 512, v0 (ix3 (0 : Fin 1) t d) * v4 (ix2 d k))
            + (∑ d : Fin 512, v2 (ix3 (0 : Fin 1) u d) * v6 (ix2 d k))) + v10 (ix1 k)) * v8 (ix2 k v)) + v11 (ix1 v) := by
  unfold k0_pay1
  refine (scores_apply _ v8 v11 z t u v).trans ?_
  refine congrArg (· + v11 (ix1 v)) (Finset.sum_congr rfl fun k _ => congrArg (· * v8 (ix2 k v)) ?_)
  refine (hidden_apply _ _ v10 t u k).trans ?_
  rw [encRows_apply, decRows_apply]

end Cert.KernelIdeal.Body

end
-- ==== Proof.HostPrep.lean ====
import proofs.«111311_j19585050870112_1_alg».proof.Proof.Gen.KernelIdeal.Frame
import proofs.«111311_j19585050870112_1_alg».proof.Proof.JointSpec
import Idealize.ShloMosaic.Lib.StableHlo.Run
import Idealize.ShloMosaic.Lib.ValueLayout

/-!
# What the kernel's operands hold

Before the kernel is launched the program re-lays its weights once: the first weight matrix `w1 : [512, 1024]` is cut
into its two column halves and each half is transposed, so that `we[d, k] = w1[k, d]` and `wd[d, k] = w1[k, 512 + d]`;
the second weight matrix `w2 : [1000, 512]` is transposed, `w[k, v] = w2[v, k]`; the two state arrays are only changed
in float format. Over the extended reals a change of float format is the identity, so the arrays the kernel's seven
input windows are cut from are, entry by entry, those re-layings of the program's arguments (the two biases are the
arguments themselves).
-/

noncomputable section

namespace Cert.KernelIdeal.Prep

open Cert.KernelIdeal Cert.KernelIdeal.Gen Idealize.ShloMosaic Idealize.ShloMosaic.TcCoe Idealize.ShloMosaic.ValueIdx
open Idealize.SL.Sem Idealize.ShloMosaic.StableHlo Cert.Joint

variable (m : (ℓ : Loc nD τ sig) → Buf (Elt Ideal) ℓ)

/-- The encoder states as the kernel's first window finds them: the argument, entry by entry. -/
theorem enc_apply (c : Dev nD) (i : S4x256x512.Idx) :
    (V m c main_v8 : S4x256x512.Idx → EReal) i = m ((c : Thread nD τ).loc main_arg0) i := by
  have e : (V m c main_v8 : S4x256x512.Idx → EReal)
      = (truncf (F := Ideal) (s := S4x256x512) (φ := .f32) .bf16 (m ((c : Thread nD τ).loc main_arg0)) bitsLt_bf16_f32 : S4x256x512.Idx → EReal) := by
    dsimp only [V, hostOps0]; after_results
  rw [e]; rfl

/-- The decoder states as the second window finds them: the argument, entry by entry. -/
theorem dec_apply (c : Dev nD) (i : S4x64x512.Idx) :
    (V m c main_v9 : S4x64x512.Idx → EReal) i = m ((c : Thread nD τ).loc main_arg1) i := by
  have e : (V m c main_v9 : S4x64x512.Idx → EReal)
      = (truncf (F := Ideal) (s := S4x64x512) (φ := .f32) .bf16 (m ((c : Thread nD τ).loc main_arg1)) bitsLt_bf16_f32 : S4x64x512.Idx → EReal) := by
    dsimp only [V, hostOps0]; after_results
  rw [e]; rfl

/-- The encoder half of the first weight matrix, transposed: entry `(d, k)` is `w1[k, d]`. -/
theorem encHalf_apply (c : Dev nD) (d k : Fin 512) :
    (V m c main_v2 : S512x512.Idx → EReal) (ix2 d k) = m ((c : Thread nD τ).loc main_arg2) (ix2 k (encCol d)) := by
  have e : (V m c main_v2 : S512x512.Idx → EReal) = (truncf (F := Ideal) (s := S512x512) (φ := .f32) .bf16 (transpose S512x512 [1, 0]
      (extractStridedSlice (s := S512x1024) S512x512 ![0, 0] (m ((c : Thread nD τ).loc main_arg2)) slices_S512x1024_S512x512_0_0)
      transposes_S512x512_S512x512_1_0) bitsLt_bf16_f32 : S512x512.Idx → EReal) := by
    dsimp only [V, hostOps0]; after_results
  rw [e]
  rw [truncf_apply, transpose_ix2_apply]
  exact slice2_axis1_apply 0 _ _ k d (encCol d) (Nat.zero_add _).symm

/-- The decoder half of the first weight matrix, transposed: entry `(d, k)` is `w1[k, 512 + d]`. -/
theorem decHalf_apply (c : Dev nD) (d k : Fin 512) :
    (V m c main_v5 : S512x512.Idx → EReal) (ix2 d k) = m ((c : Thread nD τ).loc main_arg2) (ix2 k (decCol d)) := by
  have e : (V m c main_v5 : S512x512.Idx → EReal) = (truncf (F := Ideal) (s := S512x512) (φ := .f32) .bf16 (transpose S512x512 [1, 0]
      (extractStridedSlice (s := S512x1024) S512x512 ![0, 512] (m ((c : Thread nD τ).loc main_arg2)) slices_S512x1024_S512x512_0_512)
      transposes_S512x512_S512x512_1_0) bitsLt_bf16_f32 : S512x512.Idx → EReal) := by
    dsimp only [V, hostOps0]; after_results
  rw [e]
  rw [truncf_apply, transpose_ix2_apply]
  exact slice2_axis1_apply 512 _ _ k d (decCol d) rfl

/-- The second weight matrix, transposed: entry `(k, v)` is `w2[v, k]`. -/
theorem out_apply (c : Dev nD) (k : Fin 512) (v : Fin 1000) :
    (V m c main_v7 : S512x1000.Idx → EReal) (ix2 k v) = m ((c : Thread nD τ).loc main_arg4) (ix2 v k) := by
  have e : (V m c main_v7 : S512x1000.Idx → EReal) = (truncf (F := Ideal) (s := S512x1000) (φ := .f32) .bf16 (transpose (s := S1000x512) S512x1000 [1, 0]
      (m ((c : Thread nD τ).loc main_arg4)) transposes_S1000x512_S512x1000_1_0) bitsLt_bf16_f32 : S512x1000.Idx → EReal) := by
    dsimp only [V, hostOps0]; after_results
  rw [e]
  rw [truncf_apply, transpose_ix2_apply]

end Cert.KernelIdeal.Prep

end
-- ==== Proof.KernelJoint.lean ====
import proofs.«111311_j19585050870112_1_alg».proof.Proof.Gen.KernelIdeal.Value
import proofs.«111311_j19585050870112_1_alg».proof.Proof.JointSpec
import proofs.«111311_j19585050870112_1_alg».proof.Proof.BodyJoint
import proofs.«111311_j19585050870112_1_alg».proof.Proof.HostPrep

/-!
# The kernel's result array is the joint network

The grid has `4 × 8` points; point `(b, s)` works on batch entry `b` and the 32 encoder frames `32 s … 32 s + 31`, with
all 64 decoder steps and the whole weights, and writes the block `[b, 32 s … 32 s + 31, all u, all v]` of the result.
Entry `(0, p, u, v)` of that block is the body's formula of the loaded blocks (`Cert.KernelIdeal.Body.pay_apply`); the
loaded blocks are rows `32 s + p` of the encoder states and `u` of the decoder states of batch entry `b`, and the
re-laid weights (`Cert.KernelIdeal.Prep`). Put together, the block is the block of `Cert.Joint.joint` of the program's six
arguments, and since every frame `t` lies in exactly the block `s = t / 32`, the blocks cover the array: after the run
the result array IS `joint`.
-/

noncomputable section

namespace Cert.KernelIdeal.JointValue

open Cert.KernelIdeal Cert.KernelIdeal.Gen Idealize.ShloMosaic Idealize.ShloMosaic.TcCoe Idealize.ShloMosaic.ValueIdx
open Idealize.SL.Sem Cert.Joint
open Idealize.ShloMosaic.Pipeline (Dat)
open scoped BigOperators

variable (m : (ℓ : Loc nD τ sig) → Buf (Elt Ideal) ℓ) (ρ : Dev nD → PrngReg)

theorem off4 : (![0, 0, 0, 0] : Fin 4 → Nat) = fun _ => 0 := funext fun a => by fin_cases a <;> rfl
theorem off3 : (![0, 0, 0] : Fin 3 → Nat) = fun _ => 0 := funext fun a => by fin_cases a <;> rfl
theorem off2 : (![0, 0] : Fin 2 → Nat) = fun _ => 0 := funext fun a => by fin_cases a <;> rfl
theorem off1 : (![0] : Fin 1 → Nat) = fun _ => 0 := funext fun a => by fin_cases a <;> rfl

/-- The block indices at a grid point, decided over the 32 points: the encoder window moves with the result's batch
    entry and frame block, the decoder window with its batch entry only, the weights and biases stay, and the result's
    block index is `(b, s, 0, 0)` with `b ≤ 3`, `s ≤ 7`. -/
theorem idx_facts : ∀ t : Fin cfg0.N,
    win0_0.index t (0 : Fin 3) = win0_7.index t (0 : Fin 4) ∧ win0_0.index t (1 : Fin 3) = win0_7.index t (1 : Fin 4)
    ∧ win0_0.index t (2 : Fin 3) = 0
    ∧ win0_1.index t (0 : Fin 3) = win0_7.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0 ∧ win0_6.index t (0 : Fin 1) = 0
    ∧ win0_7.index t (2 : Fin 4) = 0 ∧ win0_7.index t (3 : Fin 4) = 0
    ∧ win0_7.index t (0 : Fin 4) ≤ 3 ∧ win0_7.index t (1 : Fin 4) ≤ 7 :=
  (by decide +kernel : ∀ t : Fin grid0.N, _)

/-- Every pair of a batch entry and a frame block is some point's. -/
theorem idx_onto : ∀ (q0 : Fin 4) (q1 : Fin 8), ∃ t : Fin cfg0.N, win0_7.index t = ![q0.val, q1.val, 0, 0] :=
  (by decide +kernel : ∀ (q0 : Fin 4) (q1 : Fin 8), ∃ t : Fin grid0.N, win0_7.index t = ![q0.val, q1.val, 0, 0])

/-! ## The loaded blocks, entry by entry -/

/-- The encoder block at a point: row `p` is frame `32 s + p` of batch entry `b`. -/
theorem read_enc (c : Dev nD) (t : Fin cfg0.N) (p : Fin 32) (d : Fin 512) (bb : Fin 4) (tt : Fin 256)
    (hb : bb.val = win0_7.index t (0 : Fin 4)) (ht : tt.val = win0_7.index t (1 : Fin 4) * 32 + p.val) :
    iblk m c 0 t (ix3 (0 : Fin 1) p d) = m ((c : Thread nD τ).loc main_arg0) (ix3 bb tt d) := by
  obtain ⟨e0, e1, e2, -⟩ := idx_facts t
  show V m c main_v8 (((cfg0.win 0).blk t).view.emb (ix3 (0 : Fin 1) p d)) = _
  rw [Prep.enc_apply]
  refine congrArg _ (funext fun a => Fin.ext ?_)
  match a with
  | ⟨0, _⟩ => show win0_0.index t (0 : Fin 3) * 1 + 1 * (0 : ℕ) = bb.val; omega
  | ⟨1, _⟩ => show win0_0.index t (1 : Fin 3) * 32 + 1 * p.val = tt.val; omega
  | ⟨2, _⟩ => show win0_0.index t (2 : Fin 3) * 512 + 1 * d.val = d.val; omega

/-- The decoder block at a point: row `u` is step `u` of batch entry `b`. -/
theorem read_dec (c : Dev nD) (t : Fin cfg0.N) (u : Fin 64) (d : Fin 512) (bb : Fin 4)
    (hb : bb.val = win0_7.index t (0 : Fin 4)) :
    iblk m c 1 t (ix3 (0 : Fin 1) u d) = m ((c : Thread nD τ).loc main_arg1) (ix3 bb u d) := by
  obtain ⟨-, -, -, e0, e1, e2, -⟩ := idx_facts t
  show V m c main_v9 (((cfg0.win 1).blk t).view.emb (ix3 (0 : Fin 1) u d)) = _
  rw [Prep.dec_apply]
  refine congrArg _ (funext fun a => Fin.ext ?_)
  match a with
  | ⟨0, _⟩ => show win0_1.index t (0 : Fin 3) * 1 + 1 * (0 : ℕ) = bb.val; omega
  | ⟨1, _⟩ => show win0_1.index t (1 : Fin 3) * 64 + 1 * u.val = u.val; omega
  | ⟨2, _⟩ => show win0_1.index t (2 : Fin 3) * 512 + 1 * d.val = d.val; omega

/-- The encoder half of the first weights, whole at every point. -/
theorem read_encHalf (c : Dev nD) (t : Fin cfg0.N) (d k : Fin 512) :
    iblk m c 2 t (ix2 d k) = m ((c : Thread nD τ).loc main_arg2) (ix2 k (encCol d)) := by
  obtain ⟨-, -, -, -, -, -, e0, e1, -⟩ := idx_facts t
  show V m c main_v2 (((cfg0.win 2).blk t).view.emb (ix2 d k)) = _
  have he : ((cfg0.win 2).blk t).view.emb (ix2 d k) = ix2 d k := funext fun a => Fin.ext (by
    match a with
    | ⟨0, _⟩ => show win0_2.index t (0 : Fin 2) * 512 + 1 * d.val = d.val; omega
    | ⟨1, _⟩ => show win0_2.index t (1 : Fin 2) * 512 + 1 * k.val = k.val; omega)
  rw [he, Prep.encHalf_apply]

/-- The decoder half of the first weights, whole at every point. -/
theorem read_decHalf (c : Dev nD) (t : Fin cfg0.N) (d k : Fin 512) :
    iblk m c 3 t (ix2 d k) = m ((c : Thread nD τ).loc main_arg2) (ix2 k (decCol d)) := by
  obtain ⟨-, -, -, -, -, -, -, -, e0, e1, -⟩ := idx_facts t
  show V m c main_v5 (((cfg0.win 3).blk t).view.emb (ix2 d k)) = _
  have he : ((cfg0.win 3).blk t).view.emb (ix2 d k) = ix2 d k := funext fun a => Fin.ext (by
    match a with
    | ⟨0, _⟩ => show win0_3.index t (0 : Fin 2) * 512 + 1 * d.val = d.val; omega
    | ⟨1, _⟩ => show win0_3.index t (1 : Fin 2) * 512 + 1 * k.val = k.val; omega)
  rw [he, Prep.decHalf_apply]

/-- The second weights, whole at every point. -/
theorem read_out (c : Dev nD) (t : Fin cfg0.N) (k : Fin 512) (v : Fin 1000) :
    iblk m c 4 t (ix2 k v) = m ((c : Thread nD τ).loc main_arg4) (ix2 v k) := by
  obtain ⟨-, -, -, -, -, -, -, -, -, -, e0, e1, -⟩ := idx_facts t
  show V m c main_v7 (((cfg0.win 4).blk t).view.emb (ix2 k v)) = _
  have he : ((cfg0.win 4).blk t).view.emb (ix2 k v) = ix2 k v := funext fun a => Fin.ext (by
    match a with
    | ⟨0, _⟩ => show win0_4.index t (0 : Fin 2) * 512 + 1 * k.val = k.val; omega
    | ⟨1, _⟩ => show win0_4.index t (1 : Fin 2) * 1000 + 1 * v.val = v.val; omega)
  rw [he, Prep.out_apply]

/-- The first bias, whole at every point. -/
theorem read_b1 (c : Dev nD) (t : Fin cfg0.N) (k : Fin 512) :
    iblk m c 5 t (ix1 k) = m ((c : Thread nD τ).loc main_arg3) (ix1 k) := by
  obtain ⟨-, -, -, -, -, -, -, -, -, -, -, -, e0, -⟩ := idx_facts t
  show V m c main_arg3 (((cfg0.win 5).blk t).view.emb (ix1 k)) = _
  have he : ((cfg0.win 5).blk t).view.emb (ix1 k) = ix1 k := funext fun a => Fin.ext (by
    match a with
    | ⟨0, _⟩ => show win0_5.index t (0 : Fin 1) * 512 + 1 * k.val = k.val; omega)
  rw [he]
  exact congrFun (V_main_arg3 m c) _

/-- The second bias, whole at every point. -/
theorem read_b2 (c : Dev nD) (t : Fin cfg0.N) (v : Fin 1000) :
    iblk m c 6 t (ix1 v) = m ((c : Thread nD τ).loc main_arg5) (ix1 v) := by
  obtain ⟨-, -, -, -, -, -, -, -, -, -, -, -, -, e0, -⟩ := idx_facts t
  show V m c main_arg5 (((cfg0.win 6).blk t).view.emb (ix1 v)) = _
  have he : ((cfg0.win 6).blk t).view.emb (ix1 v) = ix1 v := funext fun a => Fin.ext (by
    match a with
    | ⟨0, _⟩ => show win0_6.index t (0 : Fin 1) * 1000 + 1 * v.val = v.val; omega)
  rw [he]
  exact congrFun (V_main_arg5 m c) _

/-! ## What a point writes back -/

/-- WHAT POINT `t` WRITES BACK is its block of the joint network of the program's arguments. -/
theorem flushed_eq (c : Dev nD) (t : Fin cfg0.N) :
    (dats m 0 c).flushed 7 t = ((cfg0.win 7).blk t).view.read (Elt Ideal)
      (joint (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  rw [Value.flushed7]
  unfold out0_7
  rw [View.canon_unit_zero off4]
  simp only [View.ld_unit_zero (S := S1x32x512) off3, View.ld_unit_zero (S := S1x64x512) off3,
    View.ld_unit_zero (S := S512x512) off2, View.ld_unit_zero (S := S512x1000) off2,
    View.ld_unit_zero (S := S512) off1, View.ld_unit_zero (S := S1000) off1]
  obtain ⟨-, -, -, -, -, -, -, -, -, -, -, -, -, -, e2, e3, hB, hS⟩ := idx_facts t
  funext j
  obtain ⟨z, p, u, v, rfl⟩ : ∃ (z : Fin 1) (p : Fin 32) (u : Fin 64) (v : Fin 1000), j = ix4 z p u v :=
    ⟨j 0, j 1, j 2, j 3, eq_ix4 j⟩
  obtain ⟨bb, hb⟩ : ∃ bb : Fin 4, bb.val = win0_7.index t (0 : Fin 4) := ⟨⟨win0_7.index t (0 : Fin 4), by omega⟩, rfl⟩
  obtain ⟨tt, ht⟩ : ∃ tt : Fin 256, tt.val = win0_7.index t (1 : Fin 4) * 32 + p.val :=
    ⟨⟨win0_7.index t (1 : Fin 4) * 32 + p.val, by have := p.isLt; omega⟩, rfl⟩
  have hemb : ((cfg0.win 7).blk t).view.emb (ix4 z p u v) = ix4 bb tt u v := funext fun a => Fin.ext (by
    match a with
    | ⟨0, _⟩ => show win0_7.index t (0 : Fin 4) * 1 + 1 * z.val = bb.val; have := z.isLt; omega
    | ⟨1, _⟩ => show win0_7.index t (1 : Fin 4) * 32 + 1 * p.val = tt.val; omega
    | ⟨2, _⟩ => show win0_7.index t (2 : Fin 4) * 64 + 1 * u.val = u.val; omega
    | ⟨3, _⟩ => show win0_7.index t (3 : Fin 4) * 1000 + 1 * v.val = v.val; omega)
  show k0_pay1 (iblk m c 0 t) (iblk m c 1 t) (iblk m c 2 t) (iblk m c 3 t) (iblk m c 4 t) (iblk m c 5 t) (iblk m c 6 t) (ix4 z p u v)
    = joint _ _ _ _ _ _ (((cfg0.win 7).blk t).view.emb (ix4 z p u v))
  rw [hemb, joint_ix4]
  refine (Body.pay_apply (iblk m c 0 t) (iblk m c 1 t) (iblk m c 2 t) (iblk m c 3 t) (iblk m c 4 t) (iblk m c 5 t)
    (iblk m c 6 t) z p u v).trans ?_
  unfold Joint.score Joint.hidden Joint.encProj Joint.decProj
  refine congrArg₂ (· + ·) (Finset.sum_congr rfl fun k _ => congrArg₂ (· * ·) (congrArg Ideal.tanh
    (congrArg₂ (· + ·) (congrArg₂ (· + ·)
      (Finset.sum_congr rfl fun d _ => congrArg₂ (· * ·) (read_enc m c t p d bb tt hb ht) (read_encHalf m c t d k))
      (Finset.sum_congr rfl fun d _ => congrArg₂ (· * ·) (read_dec m c t u d bb hb) (read_decHalf m c t d k)))
      (read_b1 m c t k))) (read_out m c t k v)) (read_b2 m c t v)

/-! ## The blocks cover the array -/

/-- An index of the result array is in point `t`'s block iff each coordinate is in the block's range on its axis. -/
theorem mem_blk (t : Fin cfg0.N) (i : S4x256x64x1000.Idx) :
    i ∈ ((cfg0.win 7).blk t).view.set ↔ ∀ a : Fin 4, win0_7.index t a * S1x32x64x1000.size a ≤ (i a).val
      ∧ (i a).val < win0_7.index t a * S1x32x64x1000.size a + S1x32x64x1000.size a := by
  show i ∈ ((View.whole main_v10).slice (win0_7.rect t)).set ↔ _
  rw [View.set_slice_whole, Rect.mem_set_unit]
  exact Iff.rfl

/-- Every index of the result array lies in the block of the point of its batch entry and frame block `t / 32`. -/
theorem cover (i : S4x256x64x1000.Idx) :
    ∃ t : Fin cfg0.N, (cfg0.win 7).flush t = true ∧ i ∈ ((cfg0.win 7).blk t).view.set := by
  have hi0 : (i 0).val < 4 := (i 0).isLt
  have hi1 : (i 1).val < 256 := (i 1).isLt
  have hi2 : (i 2).val < 64 := (i 2).isLt
  have hi3 : (i 3).val < 1000 := (i 3).isLt
  obtain ⟨t, ht⟩ := idx_onto ⟨(i 0).val, hi0⟩ ⟨(i 1).val / 32, by omega⟩
  have q0 : win0_7.index t (0 : Fin 4) = (i 0).val := congrFun ht 0
  have q1 : win0_7.index t (1 : Fin 4) = (i 1).val / 32 := congrFun ht 1
  have q2 : win0_7.index t (2 : Fin 4) = 0 := congrFun ht 2
  have q3 : win0_7.index t (3 : Fin 4) = 0 := congrFun ht 3
  refine ⟨t, flush0_7 t, ?_⟩
  rw [mem_blk]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 32 ≤ (i 1).val ∧ (i 1).val < win0_7.index t (1 : Fin 4) * 32 + 32; omega
  | ⟨2, _⟩ => show win0_7.index t (2 : Fin 4) * 64 ≤ (i 2).val ∧ (i 2).val < win0_7.index t (2 : Fin 4) * 64 + 64; omega
  | ⟨3, _⟩ => show win0_7.index t (3 : Fin 4) * 1000 ≤ (i 3).val ∧ (i 3).val < win0_7.index t (3 : Fin 4) * 1000 + 1000; omega

/-- THE RESULT ARRAY after the run is the joint network of the program's six arguments. -/
theorem final (c : Dev nD) : (dats m 0 c).arrAt 7 cfg0.N
    = joint (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 7 _ (fun t _ => flushed_eq m c t) cover

/-- The kernel's run with the result array named: every weakly fair execution ends with the result at the joint
    network of the arguments, and the arguments unchanged. -/
theorem run : θ_run defs (onTc (τ := τ) (main (F := Ideal))) ⟨m, fun _ => 0, ρ⟩ fun r => ∀ c : Dev nD,
      r.2.mem ((c : Thread nD τ).loc main_v10)
        = joint (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.JointValue

end
-- ==== Proof.RefJoint.lean ====
import proofs.«111311_j19585050870112_1_alg».proof.Proof.Gen.ReferenceIdeal.Read
import proofs.«111311_j19585050870112_1_alg».proof.Proof.JointSpec

/-!
# The reference computes the joint network

The reference slices the first weight matrix into its two column halves, contracts the encoder states with the one
and the decoder states with the other over the feature axis, spreads the two results over the `(t, u)` pairs by
broadcasting, adds them and then the bias, takes the hyperbolic tangent, contracts the hidden axis with the second
weight matrix and adds the second bias. Read at an index `(b, t, u, v)`, stage by stage, that is `Cert.Joint.score`:
each contraction is the sum over `Fin 512` of products of the two operands' entries, each broadcast reads its operand
at the coordinates it keeps, and the two additions and the tangent act entry by entry.
-/

noncomputable section

namespace Cert.ReferenceIdeal.RefValue

open Cert.ReferenceIdeal Cert.ReferenceIdeal.Read Idealize.ShloMosaic Idealize.ShloMosaic.ValueIdx Cert.Joint
open scoped BigOperators

variable (x0 : (⟨S4x256x512, .f32⟩ : BufTy).Contents (Elt Ideal)) (x1 : (⟨S4x64x512, .f32⟩ : BufTy).Contents (Elt Ideal))
  (x2 : (⟨S512x1024, .f32⟩ : BufTy).Contents (Elt Ideal)) (x3 : (⟨S512, .f32⟩ : BufTy).Contents (Elt Ideal))
  (x4 : (⟨S1000x512, .f32⟩ : BufTy).Contents (Elt Ideal)) (x5 : (⟨S1000, .f32⟩ : BufTy).Contents (Elt Ideal))

/-- The first contraction at `(b, t, k)`: the encoder state of frame `t` against row `k` of the encoder half. -/
theorem encProj_eq (b : Fin 4) (t : Fin 256) (k : Fin 512) :
    val_main_v2 (F := Ideal) x0 x2 (ix3 b t k) = encProj x0 x2 b t k := by
  rw [val_main_v2_apply]
  unfold encProj
  refine Finset.sum_congr rfl fun d _ => ?_
  rw [val_main_v0_apply]
  refine congrArg₂ (· * ·) (congrArg x0 ?_) (congrArg x2 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)

/-- The second contraction at `(b, u, k)`: the decoder state of step `u` against row `k` of the decoder half. -/
theorem decProj_eq (b : Fin 4) (u : Fin 64) (k : Fin 512) :
    val_main_v3 (F := Ideal) x1 x2 (ix3 b u k) = decProj x1 x2 b u k := by
  rw [val_main_v3_apply]
  unfold decProj
  refine Finset.sum_congr rfl fun d _ => ?_
  rw [val_main_v1_apply]
  refine congrArg₂ (· * ·) (congrArg x1 ?_) (congrArg x2 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)

/-- The hidden layer at `(b, t, u, k)`: the two projections spread over the pairs, added, the bias added, the tangent. -/
theorem hidden_eq (b : Fin 4) (t : Fin 256) (u : Fin 64) (k : Fin 512) :
    val_main_v12 (F := Ideal) x0 x1 x2 x3 (ix4 b t u k) = hidden x0 x1 x2 x3 b t u k := by
  rw [val_main_v12_apply, val_main_v11_apply, val_main_v8_apply, val_main_v6_apply, val_main_v4_apply,
    val_main_v7_apply, val_main_v5_apply, val_main_v10_apply, val_main_v9_apply]
  have e2 : idx_main_v4 (idx_main_v6 (ix4 b t u k)) = ix3 b t k :=
    funext fun a => Fin.ext (by match a with | ⟨0, _⟩ => rfl | ⟨1, _⟩ => rfl | ⟨2, _⟩ => rfl)
  have e3 : idx_main_v5 (idx_main_v7 (ix4 b t u k)) = ix3 b u k :=
    funext fun a => Fin.ext (by match a with | ⟨0, _⟩ => rfl | ⟨1, _⟩ => rfl | ⟨2, _⟩ => rfl)
  have e9 : idx_main_v9 (idx_main_v10 (ix4 b t u k)) = ix1 k :=
    funext fun a => Fin.ext (by match a with | ⟨0, _⟩ => rfl)
  rw [e2, e3, e9, encProj_eq, decProj_eq]
  rfl

/-- The reference's result at `(b, t, u, v)`. -/
theorem result_at (b : Fin 4) (t : Fin 256) (u : Fin 64) (v : Fin 1000) :
    val_main_v16 (F := Ideal) x0 x1 x2 x3 x4 x5 (ix4 b t u v) = score x0 x1 x2 x3 x4 x5 b t u v := by
  rw [val_main_v16_apply, val_main_v13_apply, val_main_v15_apply, val_main_v14_apply, Ideal.addf_def]
  unfold score
  refine congrArg₂ (· + ·) (Finset.sum_congr rfl fun k _ => ?_) (congrArg x5 ?_)
  · have el : lidx_main_v13 (ix4 b t u v) k = ix4 b t u k :=
      funext fun a => Fin.ext (by match a with | ⟨0, _⟩ => rfl | ⟨1, _⟩ => rfl | ⟨2, _⟩ => rfl | ⟨3, _⟩ => rfl)
    have er : ridx_main_v13 (ix4 b t u v) k = ix2 v k :=
      funext fun a => Fin.ext (by match a with | ⟨0, _⟩ => rfl | ⟨1, _⟩ => rfl)
    rw [el, er, hidden_eq]
  · exact funext fun a => Fin.ext (by match a with | ⟨0, _⟩ => rfl)

/-- The reference's last stage is the joint network of its six arguments. -/
theorem result_eq : val_main_v16 (F := Ideal) x0 x1 x2 x3 x4 x5 = joint x0 x1 x2 x3 x4 x5 := by
  funext i
  obtain ⟨b, t, u, v, rfl⟩ : ∃ (b : Fin 4) (t : Fin 256) (u : Fin 64) (v : Fin 1000), i = ix4 b t u v :=
    ⟨i 0, i 1, i 2, i 3, eq_ix4 i⟩
  exact (result_at x0 x1 x2 x3 x4 x5 b t u v).trans (joint_ix4 x0 x1 x2 x3 x4 x5 b t u v).symm

end Cert.ReferenceIdeal.RefValue

end
-- ==== Proof.lean ====
/-
  A transducer's joint network, `Linear(concat(enc, dec)) → tanh → Linear`, as a tiled kernel against its plain
  reference, equal over the extended reals.

  Both programs split the first weight matrix `w1 : [512, 1024]` by columns, so that the first layer is two small
  products — encoder states against columns `0 … 511`, decoder states against columns `512 … 1023` — spread over
  the `(t, u)` pairs and added, then the bias, then the hyperbolic tangent, then the product with the second weight
  matrix and its bias. The kernel works on blocks of 32 encoder frames of one batch entry, on weights transposed
  beforehand and on operands rounded to a shorter float format; over the extended reals that rounding is the
  identity, a product into a zero accumulator is a plain sum, and a transposed operand read at `(d, k)` is the
  original at `(k, d)`. So both results are, entry by entry and with the same grouping of the three sums and the
  additions, the one function `Cert.Joint.joint` of the six arguments (Proof/JointSpec.lean): no sum is re-ordered and no
  factor moved, and the finiteness of the inputs is never used.

  The parts: the reference's last stage read at an index is `joint` (Proof/RefJoint.lean); the kernel body's stored
  value at an entry of its block (Proof/BodyJoint.lean) and the re-laid operands it loads (Proof/HostPrep.lean) make each
  grid point write its block of `joint`, and the 32 blocks cover the result array (Proof/KernelJoint.lean). The three
  frames are the generated runs; the idealization rewrote no operation, so there is nothing to preserve.
-/
import proofs.«111311_j19585050870112_1_alg».proof.Defs
import proofs.«111311_j19585050870112_1_alg».proof.Proof.Gen.Kernel
import proofs.«111311_j19585050870112_1_alg».proof.Proof.Gen.Kernel.Skeleton
import proofs.«111311_j19585050870112_1_alg».proof.Proof.Gen.Kernel.Launch
import proofs.«111311_j19585050870112_1_alg».proof.Proof.Gen.Kernel.Points
import proofs.«111311_j19585050870112_1_alg».proof.Proof.Gen.Kernel.Frame
import proofs.«111311_j19585050870112_1_alg».proof.Proof.Gen.KernelIdeal
import proofs.«111311_j19585050870112_1_alg».proof.Proof.Gen.KernelIdeal.Skeleton
import proofs.«111311_j19585050870112_1_alg».proof.Proof.Gen.KernelIdeal.Launch
import proofs.«111311_j19585050870112_1_alg».proof.Proof.Gen.KernelIdeal.Points
import proofs.«111311_j19585050870112_1_alg».proof.Proof.Gen.KernelIdeal.Frame
import proofs.«111311_j19585050870112_1_alg».proof.Proof.Gen.ReferenceIdeal
import proofs.«111311_j19585050870112_1_alg».proof.Proof.Gen.KernelIdeal.Value
import proofs.«111311_j19585050870112_1_alg».proof.Proof.Gen.ReferenceIdeal.Run
import proofs.«111311_j19585050870112_1_alg».proof.Proof.Gen.ReferenceIdeal.Read
import proofs.«111311_j19585050870112_1_alg».proof.Proof.Gen.Pre_finite_inputs
import proofs.«111311_j19585050870112_1_alg».proof.Proof.KernelJoint
import proofs.«111311_j19585050870112_1_alg».proof.Proof.RefJoint
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel's result array and the reference's are both the joint network of the six
    arguments, which agree. -/
theorem algebraic : Cert.algebraic_KernelIdeal_ReferenceIdeal := by
  intro m ρ m' ρ' _ hagree
  refine ⟨_, Cert.KernelIdeal.JointValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq, (hagree c).1, (hagree c).2.1,
    (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
